-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x21x512x512 : Shape := ⟨4, ![8, 21, 512, 512]⟩
abbrev S8x512x512 : Shape := ⟨3, ![8, 512, 512]⟩
abbrev S_ : Shape := ⟨0, ![]⟩

class Facts : Prop where
  bcast_S_S8x21x512x512 : S_.BroadcastsInDim S8x21x512x512 (![] : Fin 0 → Fin S8x21x512x512.rank)
  reducesTo_S8x21x512x512_S_d0_1_2_3 : S8x21x512x512.ReducesTo [0, 1, 2, 3] S_
  h_S_ : 0 < S_.numel

variable [Facts]

def fn {F : FTy → Type} [FloatOps F] (main_arg0 : FVec F S8x21x512x512 .f32) (main_arg1 : IVec S8x512x512 32) : IVec S_ 1 :=
  let main_v0 : FVec F S8x21x512x512 .f32 := Host.absf main_arg0
  let main_cst : FVec F S_ .f32 := constant S_ .f32 0x7F800000#32
  let main_v1 : FVec F S8x21x512x512 .f32 := broadcastInDim S8x21x512x512 ![] bcast_S_S8x21x512x512 main_cst
  let main_v2 : IVec S8x21x512x512 1 := cmpf .olt main_v0 main_v1
  let main_c : IVec S_ 1 := constantI S_ 1 1#1
  let main_v3 : IVec S_ 1 := (fun x v => Host.reduce IntOp.andi x v reducesTo_S8x21x512x512_S_d0_1_2_3 h_S_) main_v2 main_c
  main_v3
-- ==== Kernel.lean ====
abbrev S8x21x512x512 : Shape := ⟨4, ![8, 21, 512, 512]⟩
abbrev S8x512x512 : Shape := ⟨3, ![8, 512, 512]⟩
abbrev S8x8x128 : Shape := ⟨3, ![8, 8, 128]⟩
abbrev S1x21x512x512 : Shape := ⟨4, ![1, 21, 512, 512]⟩
abbrev S1x8x128 : Shape := ⟨3, ![1, 8, 128]⟩
abbrev S21x512x512 : Shape := ⟨3, ![21, 512, 512]⟩
abbrev S512x512 : Shape := ⟨2, ![512, 512]⟩
abbrev S1x512x512 : Shape := ⟨3, ![1, 512, 512]⟩
abbrev S1x1x512x512 : Shape := ⟨4, ![1, 1, 512, 512]⟩
abbrev S1 : Shape := ⟨1, ![1]⟩
abbrev S1x1x1x1 : Shape := ⟨4, ![1, 1, 1, 1]⟩
abbrev S8x128 : Shape := ⟨2, ![8, 128]⟩
abbrev S_ : Shape := ⟨0, ![]⟩
abbrev S1x1 : Shape := ⟨2, ![1, 1]⟩

abbrev nBuf : Space → Nat
  | .hbm => 14
  | .vmem => 4
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S8x8x128, .f32⟩
  | .hbm, ⟨3, _⟩ => ⟨S_, .f32⟩
  | .hbm, ⟨4, _⟩ => ⟨S8x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x21x512x512, .f32⟩
  | .local _ .vmem, ⟨1, _⟩ => ⟨S1x21x512x512, .f32⟩
  | .local _ .vmem, ⟨2, _⟩ => ⟨S1x8x128, .f32⟩
  | .local _ .vmem, ⟨3, _⟩ => ⟨S1x8x128, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x21x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x21x512x512_S1x21x512x512_0_0_0_0 : ∀ a, (![0, 0, 0, 0] : Fin 4 → Nat) a + S1x21x512x512.size a ≤ S1x21x512x512.size a
  h_S1x21x512x512 : 0 < S1x21x512x512.numel
  shapeCasts_S1x21x512x512_S21x512x512 : S1x21x512x512.ShapeCasts S21x512x512
  natLt_1_32 : 1 < 32
  reduces_S21x512x512_S512x512 : S21x512x512.Reduces [0] S512x512
  shapeCasts_S512x512_S1x512x512 : S512x512.ShapeCasts S1x512x512
  shapeCasts_S1x512x512_S1x1x512x512 : S1x512x512.ShapeCasts S1x1x512x512
  reduces_S1x1x512x512_S1 : S1x1x512x512.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  iota_S8x128_d0_w32 : S8x128.Iotas .tc 32 [0]
  iota_S8x128_d1_w32 : S8x128.Iotas .tc 32 [1]
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S8x8x128_S8x128_d0 : S8x8x128.ReducesTo [0] S8x128
  h_S_ : 0 < S_.numel
  slices_S8x128_S1x1_0_0 : S8x128.Slices ![0, 0] S1x1
  shapeCasts_S1x1_S_ : S1x1.ShapeCasts S_
  slices_S8x128_S1x1_0_1 : S8x128.Slices ![0, 1] S1x1
  slices_S8x128_S1x1_0_2 : S8x128.Slices ![0, 2] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x21x512x512.size a ≤ S8x21x512x512.size a
  hwx0_0 : ∀ i : grid0.Coords, EltTy.bits .f32 = 32 ∨ (Rect.block (s := S8x21x512x512) S1x21x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S8x8x128.size a
  hwx0_1 : ∀ i : grid0.Coords, EltTy.bits .f32 = 32 ∨ (Rect.block (s := S8x8x128) S1x8x128.size (cc0_transform_1 i) (hinb0_1 i)).WholeWords (EltTy.packing .f32)

variable [Facts₀]

abbrev win0_0 : Pipeline.Window sig grid0 :=
  Pipeline.Window.ofSpec (Memref.whole main_arg0) S1x21x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x21x512x512 : Shape := ⟨4, ![8, 21, 512, 512]⟩
abbrev S8x512x512 : Shape := ⟨3, ![8, 512, 512]⟩
abbrev S_ : Shape := ⟨0, ![]⟩
abbrev S8x1x512x512 : Shape := ⟨4, ![8, 1, 512, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S_, .f32⟩
  | .hbm, ⟨3, _⟩ => ⟨S8x21x512x512, .f32⟩
  | .hbm, ⟨4, _⟩ => ⟨S8x21x512x512, .i1⟩
  | .hbm, ⟨5, _⟩ => ⟨S8x21x512x512, .f32⟩
  | .hbm, ⟨6, _⟩ => ⟨S8x21x512x512, .f32⟩
  | .hbm, ⟨7, _⟩ => ⟨S_, .f32⟩
  | .hbm, ⟨8, _⟩ => ⟨S8x512x512, .f32⟩
  | .hbm, ⟨9, _⟩ => ⟨S8x1x512x512, .f32⟩
  | .hbm, ⟨10, _⟩ => ⟨S_, .f32⟩
  | .hbm, ⟨11, _⟩ => ⟨S8x512x512, .f32⟩
  | .hbm, ⟨12, _⟩ => ⟨S8x1x512x512, .f32⟩
  | .hbm, ⟨13, _⟩ => ⟨S8x21x512x512, .f32⟩
  | .hbm, ⟨14, _⟩ => ⟨S8x21x512x512, .f32⟩
  | .hbm, ⟨15, _⟩ => ⟨S8x21x512x512, .f32⟩
  | .hbm, ⟨16, _⟩ => ⟨S_, .f32⟩
  | .hbm, ⟨17, _⟩ => ⟨S_, .f32⟩
  | .hbm, ⟨18, _⟩ => ⟨S8x21x512x512, .f32⟩
  | .hbm, ⟨19, _⟩ => ⟨S8x21x512x512, .f32⟩
  | .hbm, ⟨20, _⟩ => ⟨S8x21x512x512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S_S8x21x512x512 : S_.BroadcastsInDim S8x21x512x512 (![] : Fin 0 → Fin S8x21x512x512.rank)
  reducesTo_S8x21x512x512_S8x512x512_d1 : S8x21x512x512.ReducesTo [1] S8x512x512
  h_S_ : 0 < S_.numel
  bcast_S8x512x512_S8x1x512x512_0_2_3 : S8x512x512.BroadcastsInDim S8x1x512x512 (![0, 2, 3] : Fin 3 → Fin S8x1x512x512.rank)
  bcast_S8x1x512x512_S8x21x512x512_0_1_2_3 : S8x1x512x512.BroadcastsInDim S8x21x512x512 (![0, 1, 2, 3] : Fin 4 → Fin S8x21x512x512.rank)
  reducesTo_S8x21x512x512_S_d0_1_2_3 : S8x21x512x512.ReducesTo [0, 1, 2, 3] S_

variable [Facts₀]

class Facts : Prop extends Facts₀ where

variable [Facts]
-- ==== Proof.LibIdxSums.lean ====
/-
  Sums over a rank-4 index set, and real sums inside the extended reals.

  A rank-4 index set is the product of its four coordinate ranges, so a sum over it is the fourfold iterated sum over
  the coordinates (`sum_idx4`); when the two leading axes are unit axes only the two trailing sums remain
  (`sum_idx4_unit2`). The inclusion of the reals in the extended reals commutes with finite sums (`coe_sum`), which
  is what lets an identity between real sums be read as one between extended-real sums of real data.
-/
import Idealize.ShloMosaic.Lib.ValueIdx

noncomputable section

open scoped BigOperators

namespace Cert.LibIdxSums

open Idealize.ShloMosaic Idealize.ShloMosaic.ValueIdx

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- With two leading unit axes the sum is the double sum over the two trailing coordinates. -/
theorem sum_idx4_unit2 {M : Type*} [AddCommMonoid M] {n2 n3 : Nat} (f : (⟨4, ![1, 1, n2, n3]⟩ : Shape).Idx → M) :
    ∑ i, f i = ∑ c : Fin n2, ∑ d : Fin n3, f (ix4 (0 : Fin 1) (0 : Fin 1) c d) := by
  rw [sum_idx4, Fin.sum_univ_one, Fin.sum_univ_one]

/-- The inclusion of the reals in the extended reals commutes with finite sums. -/
@[norm_cast]
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibIdxSums

end
-- ==== Proof.PairSumRegroup.lean ====
/-
  The regrouping identities behind the pairwise channel loss, over the reals.

  For data `r` and weights `g` indexed by (batch, channel, row, column), write per pixel
  `O = Σ_c r`, `S = Σ_c r·g`, `T = Σ_c g`, `Q = Σ_c r·(r·g)`. Summing `r_c · (S − r_c g_c)` over the channels of a
  pixel gives `S·O − Q`, and summing `r_c · (T − g_c)` gives `T·O − S`: each is distributivity of the product over
  the channel sum. Summing over every pixel of every batch element, in either order of the four coordinates, gives the
  totals below; a constant factor moves across all four sums.
-/
import Idealize.ShloMosaic.PureOps.Ideal

open scoped BigOperators

namespace Cert.PairSumRegroup

variable {B C H W : Type*} [Fintype B] [Fintype C] [Fintype H] [Fintype W]

/-- One pixel: `Σ_c f_c · (S − f_c g_c) = S·O − Q`. -/
theorem pix_num (f g : C → ℝ) :
    ∑ c, f c * ((∑ c', f c' * g c') - f c * g c) = (∑ c, f c * g c) * (∑ c, f c) - ∑ c, f c * (f c * g c) := by
  simp only [mul_sub, Finset.sum_sub_distrib, ← Finset.sum_mul]
  ring

/-- One pixel: `Σ_c f_c · (T − g_c) = T·O − S`. -/
theorem pix_dena (f g : C → ℝ) :
    ∑ c, f c * ((∑ c', g c') - g c) = (∑ c, g c) * (∑ c, f c) - ∑ c, f c * g c := by
  simp only [mul_sub, Finset.sum_sub_distrib, ← Finset.sum_mul]
  ring

/-- The channel sum moved innermost. -/
theorem sum_channel_last {α : Type*} [AddCommMonoid α] (F : B → C → H → W → α) :
    ∑ b, ∑ c, ∑ h, ∑ w, F b c h w = ∑ b, ∑ h, ∑ w, ∑ c, F b c h w := by
  refine Finset.sum_congr rfl fun b _ => ?_
  rw [Finset.sum_comm]
  refine Finset.sum_congr rfl fun h _ => ?_
  rw [Finset.sum_comm]

/-- The numerator: per-pixel `S·O − Q` summed over pixels is `Σ r·(S − r g)` summed over every entry. -/
theorem num_total (r g : B → C → H → W → ℝ) :
    ∑ b, ∑ h, ∑ w, ((∑ c, r b c h w * g b c h w) * (∑ c, r b c h w) - ∑ c, r b c h w * (r b c h w * g b c h w))
      = ∑ b, ∑ c, ∑ h, ∑ w, r b c h w * ((∑ c', r b c' h w * g b c' h w) - r b c h w * g b c h w) := by
  rw [sum_channel_last]
  refine Finset.sum_congr rfl fun b _ => Finset.sum_congr rfl fun h _ => Finset.sum_congr rfl fun w _ => ?_
  exact (pix_num (fun c => r b c h w) (fun c => g b c h w)).symm

/-- The first denominator term: per-pixel `T·O − S` summed over pixels is `Σ r·(T − g)` summed over every entry. -/
theorem dena_total (r g : B → C → H → W → ℝ) :
    ∑ b, ∑ h, ∑ w, ((∑ c, g b c h w) * (∑ c, r b c h w) - ∑ c, r b c h w * g b c h w)
      = ∑ b, ∑ c, ∑ h, ∑ w, r b c h w * ((∑ c', g b c' h w) - g b c h w) := by
  rw [sum_channel_last]
  refine Finset.sum_congr rfl fun b _ => Finset.sum_congr rfl fun h _ => Finset.sum_congr rfl fun w _ => ?_
  exact (pix_dena (fun c => r b c h w) (fun c => g b c h w)).symm

/-- The second denominator term: a constant times each pixel's `S`, summed, is the constant times the total. -/
theorem denb_total (κ : ℝ) (r g : B → C → H → W → ℝ) :
    ∑ b, ∑ h, ∑ w, κ * ∑ c, r b c h w * g b c h w = κ * ∑ b, ∑ c, ∑ h, ∑ w, r b c h w * g b c h w := by
  rw [sum_channel_last]
  simp only [Finset.mul_sum]

end Cert.PairSumRegroup
-- ==== Proof.PairLossTerms.lean ====
/-
  The three totals of the pairwise channel loss, in two arrangements, and their equality on real data.

  An entry `x` of the input carries the weight `keep x`: 0 when `x` is the ignored value 255, 1 otherwise. For one pixel
  of one batch element, with `f` its column of channel values, write `O = Σ_c f_c`, `S = Σ_c f_c·keep f_c`,
  `T = Σ_c keep f_c`, `Q = Σ_c f_c·(f_c·keep f_c)`.
  * One arrangement sums, over the pixels of each batch element and then over the batch, the per-pixel terms
    `S·O − Q`, `T·O − S` and `20·S` (`numK`, `denaK`, `denbK`).
  * The other sums over every entry `x·(S − x·keep x)`, `x·(T − keep x)`, and `x·keep x` (the last multiplied by 20
    after the sum) (`numR`, `denaR`, `sumR`).
  When every entry is a real number the two agree: the per-pixel identities are distributivity of the product over
  the channel sum, which holds on the reals and fails on the extended reals only at the infinities.
  Both arrangements end in the same combination `num / ((den_a + den_b) − num)` (`ratio`).
-/
import Idealize.ShloMosaic.Lib.ValueIdx
import Idealize.ShloMosaic.PureOps.Ideal.Laws
import proofs.«118659_j40312563040867_2_alg».proof.Proof.LibIdxSums
import proofs.«118659_j40312563040867_2_alg».proof.Proof.PairSumRegroup

noncomputable section

open scoped BigOperators

namespace Cert.PairLoss

open Idealize.ShloMosaic Idealize.ShloMosaic.ValueIdx Cert.LibIdxSums

/-- The ignored value, as both programs spell it: the binary32 pattern of 255.0. -/
abbrev ign : EReal := Ideal.ofBits .f32 0x437F0000#32
/-- The number of other channels, as both programs spell it: the binary32 pattern of 20.0. -/
abbrev others : EReal := Ideal.ofBits .f32 0x41A00000#32

/-- The pattern of 20.0 denotes the real number 20. -/
theorem others_real : others = ((20 : ℝ) : EReal) := by
  simp [Ideal.ofBits, Ideal.ieee, -EReal.coe_mul]; norm_num

/-- The weight of an entry: 0 on the ignored value, 1 elsewhere. -/
def keep (x : EReal) : EReal := if x = ign then 0 else 1
/-- The same weight of a real entry, as a real number. -/
def keepR (x : ℝ) : ℝ := if (x : EReal) = ign then 0 else 1

theorem keep_coe (x : ℝ) : keep (x : EReal) = ((keepR x : ℝ) : EReal) := by
  unfold keep keepR; split_ifs <;> simp

/-- "Not equal to 255" as a one-bit word, widened to 32 bits and read as a signed integer, is the weight. -/
theorem keep_of_sitofp (x : EReal) :
    FloatOps.sitofp (F := Ideal) .f32 ((FloatOps.cmpf (F := Ideal) (φ := .f32) .one x ign).setWidth 32) = keep x := by
  unfold keep
  by_cases h : x = ign
  · have e : FloatOps.cmpf (F := Ideal) (φ := .f32) .one x ign = 0#1 := by simp [Ideal.cmpf_def, Ideal.cmp, h]
    have e' : ((0#1 : BitVec 1).setWidth 32).toInt = 0 := by decide
    rw [e, if_pos h]
    show (((((0#1 : BitVec 1).setWidth 32).toInt : ℤ) : ℝ) : EReal) = 0
    rw [e']; simp
  · have e : FloatOps.cmpf (F := Ideal) (φ := .f32) .one x ign = 1#1 := by simp [Ideal.cmpf_def, Ideal.cmp, h]
    have e' : ((1#1 : BitVec 1).setWidth 32).toInt = 1 := by decide
    rw [e, if_neg h]
    show (((((1#1 : BitVec 1).setWidth 32).toInt : ℤ) : ℝ) : EReal) = 1
    rw [e']; simp

/-- The same one-bit word read as an unsigned integer is the weight too. -/
theorem keep_of_uitofp (x : EReal) :
    FloatOps.uitofp (F := Ideal) .f32 (FloatOps.cmpf (F := Ideal) (φ := .f32) .une x ign) = keep x := by
  unfold keep
  by_cases h : x = ign
  · have e : FloatOps.cmpf (F := Ideal) (φ := .f32) .une x ign = 0#1 := by simp [Ideal.cmpf_def, Ideal.cmp, h]
    rw [e, if_pos h]
    show ((((0#1 : BitVec 1).toNat : ℕ) : ℝ) : EReal) = 0
    simp
  · have e : FloatOps.cmpf (F := Ideal) (φ := .f32) .une x ign = 1#1 := by simp [Ideal.cmpf_def, Ideal.cmp, h]
    rw [e, if_neg h]
    show ((((1#1 : BitVec 1).toNat : ℕ) : ℝ) : EReal) = 1
    simp

variable {n0 n1 n2 n3 : Nat}

/-- The column of channel values of `X` at batch element `b`, pixel `(h, w)`. -/
def chan (X : (⟨4, ![n0, n1, n2, n3]⟩ : Shape).Idx → EReal) (b : Fin n0) (h : Fin n2) (w : Fin n3) : Fin n1 → EReal :=
  fun c => X (ix4 b c h w)

/-- One pixel's numerator term `S·O − Q`. -/
def numPix (f : Fin n1 → EReal) : EReal := (∑ c, f c * keep (f c)) * (∑ c, f c) - ∑ c, f c * (f c * keep (f c))
/-- One pixel's first denominator term `T·O − S`. -/
def denaPix (f : Fin n1 → EReal) : EReal := (∑ c, keep (f c)) * (∑ c, f c) - ∑ c, f c * keep (f c)
/-- One pixel's second denominator term `20·S`. -/
def denbPix (f : Fin n1 → EReal) : EReal := others * ∑ c, f c * keep (f c)

/-- The per-pixel terms summed over the pixels of batch element `b`. -/
def numPart (X : (⟨4, ![n0, n1, n2, n3]⟩ : Shape).Idx → EReal) (b : Fin n0) : EReal := ∑ h, ∑ w, numPix (chan X b h w)
def denaPart (X : (⟨4, ![n0, n1, n2, n3]⟩ : Shape).Idx → EReal) (b : Fin n0) : EReal := ∑ h, ∑ w, denaPix (chan X b h w)
def denbPart (X : (⟨4, ![n0, n1, n2, n3]⟩ : Shape).Idx → EReal) (b : Fin n0) : EReal := ∑ h, ∑ w, denbPix (chan X b h w)

/-- The first arrangement: the batch elements' partial sums, summed. -/
def numK (X : (⟨4, ![n0, n1, n2, n3]⟩ : Shape).Idx → EReal) : EReal := ∑ b, numPart X b
def denaK (X : (⟨4, ![n0, n1, n2, n3]⟩ : Shape).Idx → EReal) : EReal := ∑ b, denaPart X b
def denbK (X : (⟨4, ![n0, n1, n2, n3]⟩ : Shape).Idx → EReal) : EReal := ∑ b, denbPart X b

/-- The second arrangement: one sum over every entry. -/
def numR (X : (⟨4, ![n0, n1, n2, n3]⟩ : Shape).Idx → EReal) : EReal :=
  ∑ b, ∑ c, ∑ h, ∑ w, X (ix4 b c h w) * ((∑ c', X (ix4 b c' h w) * keep (X (ix4 b c' h w))) - X (ix4 b c h w) * keep (X (ix4 b c h w)))
def denaR (X : (⟨4, ![n0, n1, n2, n3]⟩ : Shape).Idx → EReal) : EReal :=
  ∑ b, ∑ c, ∑ h, ∑ w, X (ix4 b c h w) * ((∑ c', keep (X (ix4 b c' h w))) - keep (X (ix4 b c h w)))
def sumR (X : (⟨4, ![n0, n1, n2, n3]⟩ : Shape).Idx → EReal) : EReal :=
  ∑ b, ∑ c, ∑ h, ∑ w, X (ix4 b c h w) * keep (X (ix4 b c h w))

/-- The loss from its three totals. -/
def ratio (n a b : EReal) : EReal := Ideal.div n ((a + b) - n)

/-- On real data the two arrangements of the numerator agree. -/
theorem numK_eq_numR (X : (⟨4, ![n0, n1, n2, n3]⟩ : Shape).Idx → EReal) (hX : ∀ j, ∃ r : ℝ, X j = (r : EReal)) :
    numK X = numR X := by
  choose r hr using hX
  obtain rfl : X = fun j => ((r j : ℝ) : EReal) := funext hr
  unfold numK numPart numPix chan numR
  simp only [keep_coe]
  exact_mod_cast PairSumRegroup.num_total (fun b c h w => r (ix4 b c h w)) (fun b c h w => keepR (r (ix4 b c h w)))

/-- On real data the two arrangements of the first denominator term agree. -/
theorem denaK_eq_denaR (X : (⟨4, ![n0, n1, n2, n3]⟩ : Shape).Idx → EReal) (hX : ∀ j, ∃ r : ℝ, X j = (r : EReal)) :
    denaK X = denaR X := by
  choose r hr using hX
  obtain rfl : X = fun j => ((r j : ℝ) : EReal) := funext hr
  unfold denaK denaPart denaPix chan denaR
  simp only [keep_coe]
  exact_mod_cast PairSumRegroup.dena_total (fun b c h w => r (ix4 b c h w)) (fun b c h w => keepR (r (ix4 b c h w)))

/-- On real data the per-pixel `20·S`, summed, is 20 times the total of `x·keep x`. -/
theorem denbK_eq (X : (⟨4, ![n0, n1, n2, n3]⟩ : Shape).Idx → EReal) (hX : ∀ j, ∃ r : ℝ, X j = (r : EReal)) :
    denbK X = others * sumR X := by
  choose r hr using hX
  obtain rfl : X = fun j => ((r j : ℝ) : EReal) := funext hr
  unfold denbK denbPart denbPix chan sumR
  simp only [keep_coe, others_real]
  exact_mod_cast PairSumRegroup.denb_total 20 (fun b c h w => r (ix4 b c h w)) (fun b c h w => keepR (r (ix4 b c h w)))

end Cert.PairLoss

end
-- ==== Proof.FiniteEntries.lean ====
/-
  Under the precondition every entry of the input is a real number.

  The precondition is `all(|x| < +∞)` over the input: a reduction by `and`, from 1, of the one-bit comparisons
  `|x| < +∞`, equal to 1. A reduction by `and` that is 1 met only 1s, so every entry has `max x (−x) < +∞` on the
  extended reals, which excludes both infinities.
-/
import proofs.«118659_j40312563040867_2_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

instance : Subsingleton S_.Idx := ⟨fun a b => funext fun d => d.elim0⟩

/-- The pattern `0x7F800000` denotes `+∞`. -/
theorem ofBits_inf : Ideal.ofBits .f32 0x7F800000#32 = (⊤ : EReal) := by
  simp [Ideal.ofBits, Ideal.ieee]

/-- An extended real whose absolute value `max x (−x)` is below `+∞` is a real number. -/
theorem real_of_abs_lt_top (x : EReal) (h : max x (-x) < ⊤) : ∃ r : ℝ, x = (r : EReal) := by
  induction x using EReal.rec with
  | bot => simp at h
  | top => simp at h
  | coe r => exact ⟨r, rfl⟩

variable [Facts]

/-- Under the precondition every entry of the float input is a real number. -/
theorem real_entries (X : FVec Ideal S8x21x512x512 .f32) (I : IVec S8x512x512 32)
    (h : fn (F := Ideal) X I = fun _ => 1#1) (j : S8x21x512x512.Idx) : ∃ r : ℝ, X j = (r : EReal) := by
  have h0 := congrFun h ValueIdx.ix0
  dsimp only [fn] at h0
  have hj := Host.reduce_andi_all _ _ _ _ _ h0 j
  have hlt : max (X j) (-(X j)) < (⊤ : EReal) := by
    have e : Ideal.cmp .olt (max (X j) (-(X j))) (Ideal.ofBits .f32 0x7F800000#32) = 1#1 := hj
    rw [ofBits_inf] at e
    by_contra hn
    simp [Ideal.cmp, hn] at e
  exact real_of_abs_lt_top _ hlt

end Cert.Pre_finite_inputs.Finite

end
-- ==== Proof.ReferenceTotals.lean ====
/-
  The reference's result as the loss of its three totals.

  The reference forms the weights `keep x` and the products `x·keep x` over the whole [8, 21, 512, 512] input, sums each
  over the channel axis (keeping it as a unit axis and broadcasting back), and takes three sums over every entry:
  of `x·(S − x·keep x)`, of `x·(T − keep x)`, and of `x·keep x`, the last multiplied by 20. Each sum starts from the
  initial value 0. Its result is `num / ((den_a + den_b) − num)`.
-/
import proofs.«118659_j40312563040867_2_alg».proof.Proof.Gen.ReferenceIdeal.Read
import proofs.«118659_j40312563040867_2_alg».proof.Proof.PairLossTerms

noncomputable section

open scoped BigOperators

namespace Cert.ReferenceIdeal.Totals

open Cert.ReferenceIdeal Cert.ReferenceIdeal.Read Idealize.ShloMosaic Idealize.ShloMosaic.TcCoe Idealize.ShloMosaic.ValueIdx
open Cert.PairLoss Cert.LibIdxSums

variable (X : (⟨S8x21x512x512, .f32⟩ : BufTy).Contents (Elt Ideal))

/-- The weights. -/
theorem weight_apply (i : S8x21x512x512.Idx) : val_main_v2 (F := Ideal) X i = keep (X i) := by
  rw [val_main_v2_apply, val_main_v1_apply, val_main_v0_apply, val_main_cst_apply]
  exact keep_of_uitofp _

/-- The weighted entries. -/
theorem weighted_apply (i : S8x21x512x512.Idx) : val_main_v3 (F := Ideal) X i = X i * keep (X i) := by
  rw [val_main_v3_apply, weight_apply]; rfl

theorem zero_init : (FloatOps.ofBits (F := Ideal) .f32 0x00000000#32 : EReal) = 0 := Ideal.ofBits_zero_f32

/-- The channel sum `S` at a pixel. -/
theorem chanS_apply (b : Fin 8) (h w : Fin 512) :
    val_main_v4 (F := Ideal) X (ix3 b h w) = ∑ c : Fin 21, X (ix4 b c h w) * keep (X (ix4 b c h w)) := by
  rw [val_main_v4_apply, val_main_cst_0_apply, zero_init, zero_add]
  refine Finset.sum_congr rfl fun c _ => ?_
  rw [weighted_apply]
  have e : idx_main_v4 (ix3 b h w) c = ix4 b c h w :=
    funext fun a => Fin.ext (by match a with | ⟨0, _⟩ => rfl | ⟨1, _⟩ => rfl | ⟨2, _⟩ => rfl | ⟨3, _⟩ => rfl)
  rw [e]

/-- The channel sum `T` at a pixel. -/
theorem chanT_apply (b : Fin 8) (h w : Fin 512) :
    val_main_v6 (F := Ideal) X (ix3 b h w) = ∑ c : Fin 21, keep (X (ix4 b c h w)) := by
  rw [val_main_v6_apply, val_main_cst_1_apply, zero_init, zero_add]
  refine Finset.sum_congr rfl fun c _ => ?_
  rw [weight_apply]
  have e : idx_main_v6 (ix3 b h w) c = ix4 b c h w :=
    funext fun a => Fin.ext (by match a with | ⟨0, _⟩ => rfl | ⟨1, _⟩ => rfl | ⟨2, _⟩ => rfl | ⟨3, _⟩ => rfl)
  rw [e]

/-- The numerator's summand at an entry. -/
theorem numTerm_apply (b : Fin 8) (c : Fin 21) (h w : Fin 512) :
    val_main_v10 (F := Ideal) X (ix4 b c h w)
      = X (ix4 b c h w) * ((∑ c' : Fin 21, X (ix4 b c' h w) * keep (X (ix4 b c' h w))) - X (ix4 b c h w) * keep (X (ix4 b c h w))) := by
  rw [val_main_v10_apply, val_main_v9_apply, val_main_v8_apply, val_main_v5_apply, weighted_apply]
  have e : idx_main_v5 (idx_main_v8 (ix4 b c h w)) = ix3 b h w :=
    funext fun a => Fin.ext (by match a with | ⟨0, _⟩ => rfl | ⟨1, _⟩ => rfl | ⟨2, _⟩ => rfl)
  rw [e, chanS_apply]; rfl

/-- The first denominator term's summand at an entry. -/
theorem denaTerm_apply (b : Fin 8) (c : Fin 21) (h w : Fin 512) :
    val_main_v14 (F := Ideal) X (ix4 b c h w)
      = X (ix4 b c h w) * ((∑ c' : Fin 21, keep (X (ix4 b c' h w))) - keep (X (ix4 b c h w))) := by
  rw [val_main_v14_apply, val_main_v13_apply, val_main_v12_apply, val_main_v7_apply, weight_apply]
  have e : idx_main_v7 (idx_main_v12 (ix4 b c h w)) = ix3 b h w :=
    funext fun a => Fin.ext (by match a with | ⟨0, _⟩ => rfl | ⟨1, _⟩ => rfl | ⟨2, _⟩ => rfl)
  rw [e, chanT_apply]; rfl

/-- The three totals. -/
theorem num_eq (i : S_.Idx) : val_main_v11 (F := Ideal) X i = numR (n0 := 8) (n1 := 21) (n2 := 512) (n3 := 512) X := by
  rw [val_main_v11_apply, val_main_cst_2_apply, zero_init, zero_add, sum_idx4]
  unfold numR
  simp only [numTerm_apply]

theorem dena_eq (i : S_.Idx) : val_main_v15 (F := Ideal) X i = denaR (n0 := 8) (n1 := 21) (n2 := 512) (n3 := 512) X := by
  rw [val_main_v15_apply, val_main_cst_3_apply, zero_init, zero_add, sum_idx4]
  unfold denaR
  simp only [denaTerm_apply]

theorem sum_eq (i : S_.Idx) : val_main_v16 (F := Ideal) X i = sumR (n0 := 8) (n1 := 21) (n2 := 512) (n3 := 512) X := by
  rw [val_main_v16_apply, val_main_cst_4_apply, zero_init, zero_add, sum_idx4]
  unfold sumR
  simp only [weighted_apply]

/-- The reference's result. -/
theorem result_eq (i : S_.Idx) :
    val_main_v20 (F := Ideal) X i
      = ratio (numR (n0 := 8) (n1 := 21) (n2 := 512) (n3 := 512) X) (denaR (n0 := 8) (n1 := 21) (n2 := 512) (n3 := 512) X)
          (others * sumR (n0 := 8) (n1 := 21) (n2 := 512) (n3 := 512) X) := by
  rw [val_main_v20_apply, val_main_v19_apply, val_main_v18_apply, val_main_v17_apply, val_main_cst_5_apply,
    num_eq, dena_eq, sum_eq]
  rfl

end Cert.ReferenceIdeal.Totals

end
-- ==== Proof.PartialsArray.lean ====
/-
  The array of partial sums after the kernel's region, and the program's result from it.

  Grid point `t` stages batch element `t` of the input — the block [1, 21, 512, 512] at block index (t, 0, 0, 0) —
  and writes the body's [1, 8, 128] tile back at block index (t, 0, 0) of the [8, 8, 128] result array. The eight
  tiles tile that array, so after the region it holds, at (b, row, lane), what the body stores at (row, lane) for
  batch element `b` (`partials`). The lines after the region sum the array over its first axis from 0, take row 0,
  lanes 0, 1 and 2 as `num`, `den_a`, `den_b`, and return `num / ((den_a + den_b) − num)` (`tail`).
-/
import proofs.«118659_j40312563040867_2_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.KernelIdeal.PartialsArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- Batch element `b` of the input, as the block the body loads. -/
def batchBlock (X : (⟨S8x21x512x512, .f32⟩ : BufTy).Contents (Elt Ideal)) (b : Fin 8) : Vec Ideal S1x21x512x512 .f32 :=
  fun y => X (ix4 b (y 1 : Fin 21) (y 2 : Fin 512) (y 3 : Fin 512))

/-- The result array after the region: at (b, row, lane) the body's tile for batch element `b` at (row, lane). -/
def partials (X : (⟨S8x21x512x512, .f32⟩ : BufTy).Contents (Elt Ideal)) : (⟨S8x8x128, .f32⟩ : BufTy).Contents (Elt Ideal) :=
  fun i => out0_1 (F := Ideal) (batchBlock X (i 0 : Fin 8)) (ix3 (0 : Fin 1) (i 1 : Fin 8) (i 2 : Fin 128))

/-- The printed index maps over the grid: point `t` stages input block (t, 0, 0, 0) and writes result block (t, 0, 0). -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

/-- The input window's block at point `t` is batch element `t`. -/
theorem iblk_eq (c : Dev nD) (t : Fin cfg0.N) (b : Fin 8) (hb : b.val = t.val) :
    iblk m c 0 t = batchBlock (V m c main_arg0) b := by
  obtain ⟨e0, e1, e2, e3, -, -, -⟩ := idx_facts t
  funext y
  unfold iblk batchBlock
  rw [View.read_apply]
  show V m c main_arg0 _ = V m c main_arg0 _
  congr 1
  funext a
  apply Fin.ext
  have h0 : (y 0).val < 1 := (y 0).isLt
  match a with
  | ⟨0, _⟩ => show win0_0.index t (0 : Fin 4) * 1 + 1 * (y 0).val = b.val; omega
  | ⟨1, _⟩ => show win0_0.index t (1 : Fin 4) * 21 + 1 * (y 1).val = (y 1).val; omega
  | ⟨2, _⟩ => show win0_0.index t (2 : Fin 4) * 512 + 1 * (y 2).val = (y 2).val; omega
  | ⟨3, _⟩ => show win0_0.index t (3 : Fin 4) * 512 + 1 * (y 3).val = (y 3).val; omega

/-- The body's tile for a block that is batch element `i 0`, read at (row, lane) = (`i 1`, `i 2`), is `partials` at `i`:
    stated over a plain block and a plain tile index. -/
theorem partials_of_block (X : (⟨S8x21x512x512, .f32⟩ : BufTy).Contents (Elt Ideal)) (x0 : Vec Ideal S1x21x512x512 .f32)
    (j' : S1x8x128.Idx) (i : S8x8x128.Idx) (hx : x0 = batchBlock X (i 0 : Fin 8))
    (h1 : (j' 1).val = (i 1).val) (h2 : (j' 2).val = (i 2).val) : out0_1 x0 j' = partials X i := by
  subst hx
  unfold partials
  refine congrArg _ (funext fun a => Fin.ext ?_)
  have h0 : (j' 0).val < 1 := (j' 0).isLt
  match a with
  | ⟨0, _⟩ => show (j' 0).val = 0; omega
  | ⟨1, _⟩ => exact h1
  | ⟨2, _⟩ => exact h2

set_option maxHeartbeats 2000000 in
/-- What point `t` writes back is block `t` of `partials` of the input as the region finds it. -/
theorem flushed_eq (c : Dev nD) (t : Fin cfg0.N) :
    (dats m 0 c).flushed 1 t = ((cfg0.win 1).blk t).view.read (Elt Ideal) (partials (V m c main_arg0)) := by
  obtain ⟨-, -, -, -, e4, e5, e6⟩ := idx_facts t
  show (cfg0.win 1).cut (grid0.coords t) ((dats m 0 c).after 1 t) = _
  rw [after0_1]
  funext j
  rw [View.read_apply]
  have h0 : (j 0).val < 1 := (j 0).isLt
  have hb : ((((cfg0.win 1).blk t).view.emb j) 0).val = t.val := by
    show win0_1.index t (0 : Fin 3) * 1 + 1 * (j 0).val = t.val; omega
  have h1 : ((((cfg0.win 1).blk t).view.emb j) 1).val = (j 1).val := by
    show win0_1.index t (1 : Fin 3) * 8 + 1 * (j 1).val = (j 1).val; omega
  have h2 : ((((cfg0.win 1).blk t).view.emb j) 2).val = (j 2).val := by
    show win0_1.index t (2 : Fin 3) * 128 + 1 * (j 2).val = (j 2).val; omega
  exact partials_of_block (V m c main_arg0) (iblk m c 0 t) ((cfg0.win 1).xinj (grid0.coords t) j)
    (((cfg0.win 1).blk t).view.emb j) (iblk_eq m c t _ hb) h1.symm h2.symm

/-- An index of the result array is in point `t`'s block iff each coordinate is in the block's range on its axis. -/
theorem mem_blk (t : Fin cfg0.N) (i : S8x8x128.Idx) :
    i ∈ ((cfg0.win 1).blk t).view.set ↔ ∀ a : Fin 3, win0_1.index t a * S1x8x128.size a ≤ (i a).val ∧ (i a).val < win0_1.index t a * S1x8x128.size a + S1x8x128.size a := by
  show i ∈ ((View.whole main_v0).slice (win0_1.rect t)).set ↔ _
  rw [View.set_slice_whole, Rect.mem_set_unit]
  exact Iff.rfl

/-- Every index of the result array is in the block of the point its first coordinate names. -/
theorem cover (i : S8x8x128.Idx) : ∃ t : Fin cfg0.N, (cfg0.win 1).flush t = true ∧ i ∈ ((cfg0.win 1).blk t).view.set := by
  have hi0 : (i 0).val < 8 := (i 0).isLt
  have hi1 : (i 1).val < 8 := (i 1).isLt
  have hi2 : (i 2).val < 128 := (i 2).isLt
  let t : Fin cfg0.N := ⟨(i 0).val, by rw [show cfg0.N = 8 from N_0]; exact hi0⟩
  obtain ⟨-, -, -, -, e4, e5, e6⟩ := idx_facts t
  have e4' : win0_1.index t (0 : Fin 3) = (i 0).val := e4
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 8 ≤ (i 1).val ∧ (i 1).val < win0_1.index t (1 : Fin 3) * 8 + 8; omega
  | ⟨2, _⟩ => show win0_1.index t (2 : Fin 3) * 128 ≤ (i 2).val ∧ (i 2).val < win0_1.index t (2 : Fin 3) * 128 + 128; omega

/-- The result array after the region is `partials` of the input. -/
theorem final (c : Dev nD) : (dats m 0 c).arrAt 1 cfg0.N = partials (m ((c : Thread nD τ).loc main_arg0)) := by
  rw [← V_main_arg0 m c]
  exact (dats m 0 c).arrAt_eq_of_cover 1 _ (fun t _ => flushed_eq m c t) cover

/-- The program's result from the array of partial sums: the lines after the region. -/
def tail (P : (⟨S8x8x128, .f32⟩ : BufTy).Contents (Elt Ideal)) : (⟨S_, .f32⟩ : BufTy).Contents (Elt Ideal) :=
  Host.divf (F := Ideal)
    (shapeCast S_ (extractStridedSlice S1x1 ![0, 0]
      (Host.reduceAdd (F := Ideal) P (constant (F := Ideal) S_ .f32 0x00000000#32) reducesTo_S8x8x128_S8x128_d0 h_S_) slices_S8x128_S1x1_0_0) shapeCasts_S1x1_S_)
    (subf
      (addf
        (shapeCast S_ (extractStridedSlice S1x1 ![0, 1]
          (Host.reduceAdd (F := Ideal) P (constant (F := Ideal) S_ .f32 0x00000000#32) reducesTo_S8x8x128_S8x128_d0 h_S_) slices_S8x128_S1x1_0_1) shapeCasts_S1x1_S_)
        (shapeCast S_ (extractStridedSlice S1x1 ![0, 2]
          (Host.reduceAdd (F := Ideal) P (constant (F := Ideal) S_ .f32 0x00000000#32) reducesTo_S8x8x128_S8x128_d0 h_S_) slices_S8x128_S1x1_0_2) shapeCasts_S1x1_S_))
      (shapeCast S_ (extractStridedSlice S1x1 ![0, 0]
        (Host.reduceAdd (F := Ideal) P (constant (F := Ideal) S_ .f32 0x00000000#32) reducesTo_S8x8x128_S8x128_d0 h_S_) slices_S8x128_S1x1_0_0) shapeCasts_S1x1_S_))

/-- What the lines after the region leave in the result buffer. -/
theorem tail_eq (c : Dev nD) :
    Pipeline.afterTail₀ cfgs (dats m) 0 (V0 m) [hostOps1] c main_v10 = tail (partials (m ((c : Thread nD τ).loc main_arg0))) := by
  have hW : Pipeline.withArrays (cfgs 0).spec c (V0 m c) (fun w => (dats m 0 c).arrAt w (cfgs 0).N) (Proc.devRef .tc main_v0)
      = partials (m ((c : Thread nD τ).loc main_arg0)) :=
    (Pipeline.withArrays_arr spec0 launch0.win.arr_inj c _ _ 1).trans (final m c)
  unfold Pipeline.afterTail₀
  show StableHlo.after hostOps1 _ (Proc.devRef .tc main_v10) = _
  after_results
  rw [hW]
  rfl

/-- The run, read: the result buffer at `tail (partials input)`, the arguments unchanged. -/
theorem run : θ_run defs (onTc (τ := τ) (main (F := Ideal))) ⟨m, fun _ => 0, ρ⟩ fun r => ∀ c : Dev nD,
      r.2.mem ((c.tc : Thread nD τ).loc main_v10) = tail (partials (m ((c : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v10 (Pipeline.mem_restRefs_of main_v10 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.PartialsArray

end
-- ==== Proof.BlockPartials.lean ====
/-
  What the kernel body stores for one batch element.

  The body loads the block `x0` of one batch element — shape [1, 21, 512, 512] — drops the unit axis, forms the
  weights `keep` and the products `x·keep`, `x·(x·keep)`, sums each over the channel axis to [512, 512] pixel maps
  `O, S, T, Q`, forms per pixel `S·O − Q`, `T·O − S`, `20·S`, sums each map over all pixels to a scalar, and stores
  an [8, 128] tile that holds the three scalars in row 0, lanes 0, 1, 2 (every other lane holds 0): the tile is
  `select(row = 0 ∧ lane = 0, num, 0) + select(row = 0 ∧ lane = 1, den_a, 0) + select(row = 0 ∧ lane = 2, den_b, 0)`.
  Read at those three lanes the stored block is the batch element's three partial sums.
-/
import proofs.«118659_j40312563040867_2_alg».proof.Proof.Gen.KernelIdeal.Frame
import Idealize.ShloMosaic.Lib.Pipeline.Value
import Idealize.ShloMosaic.Lib.ValueLayout
import proofs.«118659_j40312563040867_2_alg».proof.Proof.PairLossTerms

noncomputable section

open scoped BigOperators

namespace Cert.KernelIdeal.BlockPartials

open Cert.KernelIdeal Cert.KernelIdeal.Gen Idealize.ShloMosaic Idealize.ShloMosaic.TcCoe Idealize.ShloMosaic.ValueIdx
open Cert.PairLoss Cert.LibIdxSums

/-- A sum over the channel axis of a [21, 512, 512] value, read at a pixel. -/
theorem channelSum_apply (v : FVec Ideal S21x512x512 .f32) (hr : S21x512x512.Reduces [0] S512x512) (hφ) (hacc)
    (h w : Fin 512) :
    multiReduction .add [0] S512x512 v 0x00000000#32 hr hφ hacc (ix2 h w) = ∑ c : Fin 21, v (ix3 c h w) := by
  rw [Ideal.multiReduction_add_single]
  refine Finset.sum_congr rfl fun k _ => ?_
  exact congrArg v (funext fun a => Fin.ext (by match a with | ⟨0, _⟩ => rfl | ⟨1, _⟩ => rfl | ⟨2, _⟩ => rfl))

/-- A sum over every pixel of a [1, 1, 512, 512] value, extracted as a scalar. -/
theorem pixelSum_extract (v : FVec Ideal S1x1x512x512 .f32) (hr : S1x1x512x512.Reduces [1, 2, 3] S1) (hφ) (hacc)
    (hc : S1.ShapeCasts S1x1x1x1) (hp) :
    extractAt ![0, 0, 0, 0] (shapeCast S1x1x1x1 (multiReduction .add [1, 2, 3] S1 v 0x00000000#32 hr hφ hacc) hc) hp
      = ∑ h : Fin 512, ∑ w : Fin 512, v (ix4 (0 : Fin 1) (0 : Fin 1) h w) := by
  unfold extractAt shapeCast
  rw [Ideal.multiReduction_add_total v _ hr (fun b => by fin_cases b; rfl)]
  exact sum_idx4_unit2 v

variable (x0 : Vec Ideal S1x21x512x512 .f32)

/-- The block with its unit axis dropped. -/
theorem pay2_apply (c : Fin 21) (h w : Fin 512) : k0_pay2 x0 (ix3 c h w) = x0 (ix4 (0 : Fin 1) c h w) := by
  unfold k0_pay2
  exact shapeCast_1abc_abc_apply _ _ c h w

/-- The weights. -/
theorem pay3_apply (c : Fin 21) (h w : Fin 512) : k0_pay3 x0 (ix3 c h w) = keep (x0 (ix4 (0 : Fin 1) c h w)) := by
  unfold k0_pay3
  show FloatOps.sitofp (F := Ideal) .f32 ((FloatOps.cmpf (F := Ideal) (φ := .f32) .one (k0_pay2 x0 (ix3 c h w)) ign).setWidth 32) = _
  rw [pay2_apply]
  exact keep_of_sitofp _

/-- The weighted entries. -/
theorem pay4_apply (c : Fin 21) (h w : Fin 512) :
    k0_pay4 x0 (ix3 c h w) = x0 (ix4 (0 : Fin 1) c h w) * keep (x0 (ix4 (0 : Fin 1) c h w)) := by
  unfold k0_pay4
  show k0_pay2 x0 (ix3 c h w) * k0_pay3 x0 (ix3 c h w) = _
  rw [pay2_apply, pay3_apply]

/-- The pixel map `O`. -/
theorem pay5_apply (u : Fin 1) (h w : Fin 512) : k0_pay5 x0 (ix3 u h w) = ∑ c : Fin 21, x0 (ix4 (0 : Fin 1) c h w) := by
  unfold k0_pay5
  refine (shapeCast_ab_1ab_apply _ _ u h w).trans ?_
  refine (channelSum_apply _ _ _ _ h w).trans ?_
  exact Finset.sum_congr rfl fun c _ => pay2_apply x0 c h w

/-- The pixel map `S`. -/
theorem pay6_apply (u : Fin 1) (h w : Fin 512) :
    k0_pay6 x0 (ix3 u h w) = ∑ c : Fin 21, x0 (ix4 (0 : Fin 1) c h w) * keep (x0 (ix4 (0 : Fin 1) c h w)) := by
  unfold k0_pay6
  refine (shapeCast_ab_1ab_apply _ _ u h w).trans ?_
  refine (channelSum_apply _ _ _ _ h w).trans ?_
  exact Finset.sum_congr rfl fun c _ => pay4_apply x0 c h w

/-- Entrywise forms over variables, so that a payload meets them head to head and nothing is unfolded. -/
theorem mul_sub_apply {s : Shape} (A B C : FVec Ideal s .f32) (i : s.Idx) : subf (mulf A B) C i = A i * B i - C i := rfl
theorem splat_mul_apply {s : Shape} (k : Ideal .f32) (A : FVec Ideal s .f32) (i : s.Idx) : mulf (broadcast s k) A i = k * A i := rfl
theorem mul_apply' {s : Shape} (A B : FVec Ideal s .f32) (i : s.Idx) : mulf A B i = A i * B i := rfl

/-- A channel sum kept as a [1, 512, 512] map, read at a pixel. -/
theorem channelMap_apply (v : FVec Ideal S21x512x512 .f32) (hr : S21x512x512.Reduces [0] S512x512) (hφ) (hacc)
    (hc : S512x512.ShapeCasts S1x512x512) (u : Fin 1) (h w : Fin 512) :
    shapeCast S1x512x512 (multiReduction .add [0] S512x512 v 0x00000000#32 hr hφ hacc) hc (ix3 u h w) = ∑ c : Fin 21, v (ix3 c h w) :=
  (shapeCast_ab_1ab_apply _ _ u h w).trans (channelSum_apply v hr hφ hacc h w)

/-- The first denominator partial: `T·O − S` summed over the pixels. -/
theorem pay7_eq : k0_pay7 x0 = denaPart (n0 := 1) (n1 := 21) (n2 := 512) (n3 := 512) x0 0 := by
  unfold k0_pay7
  refine (pixelSum_extract _ _ _ _ _ _).trans ?_
  unfold denaPart
  refine Finset.sum_congr rfl fun h _ => Finset.sum_congr rfl fun w _ => ?_
  refine (shapeCast_abc_1abc_apply _ _ 0 0 h w).trans ?_
  refine (mul_sub_apply _ _ _ _).trans ?_
  unfold denaPix chan
  refine congrArg₂ (· - ·) (congrArg₂ (· * ·) ?_ (pay5_apply x0 0 h w)) (pay6_apply x0 0 h w)
  refine (channelMap_apply _ _ _ _ _ 0 h w).trans ?_
  exact Finset.sum_congr rfl fun c _ => pay3_apply x0 c h w

/-- The second denominator partial: `20·S` summed over the pixels. -/
theorem pay8_eq : k0_pay8 x0 = denbPart (n0 := 1) (n1 := 21) (n2 := 512) (n3 := 512) x0 0 := by
  unfold k0_pay8
  refine (pixelSum_extract _ _ _ _ _ _).trans ?_
  unfold denbPart
  refine Finset.sum_congr rfl fun h _ => Finset.sum_congr rfl fun w _ => ?_
  refine (shapeCast_abc_1abc_apply _ _ 0 0 h w).trans ?_
  refine (splat_mul_apply _ _ _).trans ?_
  unfold denbPix chan
  exact congrArg₂ (· * ·) rfl (pay6_apply x0 0 h w)

/-- The numerator partial, splat over the tile: `S·O − Q` summed over the pixels. -/
theorem pay10_apply (j : S8x128.Idx) : k0_pay10 x0 j = numPart (n0 := 1) (n1 := 21) (n2 := 512) (n3 := 512) x0 0 := by
  unfold k0_pay10
  refine (broadcast_apply _ j).trans ?_
  refine (pixelSum_extract _ _ _ _ _ _).trans ?_
  unfold numPart
  refine Finset.sum_congr rfl fun h _ => Finset.sum_congr rfl fun w _ => ?_
  refine (shapeCast_abc_1abc_apply _ _ 0 0 h w).trans ?_
  refine (mul_sub_apply _ _ _ _).trans ?_
  unfold numPix chan
  refine congrArg₂ (· - ·) (congrArg₂ (· * ·) (pay6_apply x0 0 h w) (pay5_apply x0 0 h w)) ?_
  refine (channelMap_apply _ _ _ _ _ 0 h w).trans ?_
  refine Finset.sum_congr rfl fun c _ => ?_
  refine (mul_apply' _ _ _).trans ?_
  exact congrArg₂ (· * ·) (pay2_apply x0 c h w) (pay4_apply x0 c h w)

end Cert.KernelIdeal.BlockPartials

end
-- ==== Proof.StoredTile.lean ====
/-
  The tile the kernel body stores, read at row 0, lanes 0, 1, 2.

  The stored [1, 8, 128] block is, at (row, lane),
  `(select(row = 0 ∧ lane = 0, num, 0) + select(row = 0 ∧ lane = 1, den_a, 0)) + select(row = 0 ∧ lane = 2, den_b, 0)`,
  the masks computed from the row and lane numbers (`iota` along each axis compared with a constant). At row 0 and
  lane 0, 1 or 2 exactly one mask holds, and `x + 0 = x`, `0 + x = x` on the extended reals: the three lanes hold the
  batch element's three partial sums.
-/
import proofs.«118659_j40312563040867_2_alg».proof.Proof.BlockPartials

noncomputable section

open scoped BigOperators

namespace Cert.KernelIdeal.StoredTile

open Cert.KernelIdeal Cert.KernelIdeal.Gen Idealize.ShloMosaic Idealize.ShloMosaic.TcCoe Idealize.ShloMosaic.ValueIdx
open Cert.PairLoss Cert.LibIdxSums Cert.KernelIdeal.BlockPartials

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The mask "row = 0 and lane = k" at (row, lane), from the row and lane numbers. -/
theorem mask_at (k : BitVec 32) (r : Fin 8) (q : Fin 128) :
    andi (cmpi .eq (iota .tc S8x128 32 [0] iota_S8x128_d0_w32) (broadcast S8x128 0#32))
        (cmpi .eq (iota .tc S8x128 32 [1] iota_S8x128_d1_w32) (broadcast S8x128 k)) (ix2 r q)
      = IntOp.andi (IntOp.cmpi .eq (BitVec.ofNat 32 r.val) 0#32) (IntOp.cmpi .eq (BitVec.ofNat 32 q.val) k) := by
  show IntOp.andi (IntOp.cmpi .eq (iota .tc S8x128 32 [0] iota_S8x128_d0_w32 (ix2 r q)) 0#32)
      (IntOp.cmpi .eq (iota .tc S8x128 32 [1] iota_S8x128_d1_w32 (ix2 r q)) k) = _
  rw [iota_single_apply, iota_single_apply]

/-- The stored block at (row, lane), for any three scalars and any first mask. -/
theorem tile_apply (A B : Ideal .f32) (m0 : IVec S8x128 1) (N Z : FVec Ideal S8x128 .f32) (u : Fin 1) (r : Fin 8) (q : Fin 128) :
    k0_pay1 (F := Ideal) A B (iota .tc S8x128 32 [0] iota_S8x128_d0_w32) (iota .tc S8x128 32 [1] iota_S8x128_d1_w32) m0 N Z (ix3 u r q)
      = (Scalar.select (m0 (ix2 r q)) (N (ix2 r q)) (Z (ix2 r q))
          + Scalar.select (andi (cmpi .eq (iota .tc S8x128 32 [0] iota_S8x128_d0_w32) (broadcast S8x128 0#32))
              (cmpi .eq (iota .tc S8x128 32 [1] iota_S8x128_d1_w32) (broadcast S8x128 1#32)) (ix2 r q)) A (Ideal.ofBits .f32 0x00000000#32))
        + Scalar.select (andi (cmpi .eq (iota .tc S8x128 32 [0] iota_S8x128_d0_w32) (broadcast S8x128 0#32))
              (cmpi .eq (iota .tc S8x128 32 [1] iota_S8x128_d1_w32) (broadcast S8x128 2#32)) (ix2 r q)) B (Ideal.ofBits .f32 0x00000000#32) := by
  unfold k0_pay1
  exact shapeCast_ab_1ab_apply _ _ u r q

variable (x0 : Vec Ideal S1x21x512x512 .f32)

/-- What the body leaves in the output block: its one store's payload. -/
theorem stored_eq : out0_1 x0
    = k0_pay1 (k0_pay7 x0) (k0_pay8 x0) (iota .tc S8x128 32 [0] iota_S8x128_d0_w32) (iota .tc S8x128 32 [1] iota_S8x128_d1_w32)
        k0_pay9 (k0_pay10 x0) (k0_pay11 (F := Ideal)) := by
  unfold out0_1
  rw [View.canon_unit_zero hz3]
  simp only [View.ld_unit_zero (S := S1x21x512x512) hz4]

/-- The first mask is "row = 0 and lane = 0". -/
theorem pay9_at (r : Fin 8) (q : Fin 128) :
    k0_pay9 (ix2 r q) = IntOp.andi (IntOp.cmpi .eq (BitVec.ofNat 32 r.val) 0#32) (IntOp.cmpi .eq (BitVec.ofNat 32 q.val) 0#32) := by
  unfold k0_pay9
  exact mask_at 0#32 r q

theorem zero_f32 : (Ideal.ofBits .f32 0x00000000#32 : EReal) = 0 := Ideal.ofBits_zero_f32

/-- Row 0, lane 0 holds the numerator's partial sum. -/
theorem stored_num (u : Fin 1) :
    out0_1 x0 (ix3 u (0 : Fin 8) (0 : Fin 128)) = numPart (n0 := 1) (n1 := 21) (n2 := 512) (n3 := 512) x0 0 := by
  rw [stored_eq]
  refine (tile_apply _ _ _ _ _ u 0 0).trans ?_
  rw [pay9_at, mask_at, mask_at, pay10_apply]
  have e0 : IntOp.andi (IntOp.cmpi .eq (BitVec.ofNat 32 (0 : Fin 8).val) 0#32) (IntOp.cmpi .eq (BitVec.ofNat 32 (0 : Fin 128).val) 0#32) = 1#1 := by decide
  have e1 : IntOp.andi (IntOp.cmpi .eq (BitVec.ofNat 32 (0 : Fin 8).val) 0#32) (IntOp.cmpi .eq (BitVec.ofNat 32 (0 : Fin 128).val) 1#32) = 0#1 := by decide
  have e2 : IntOp.andi (IntOp.cmpi .eq (BitVec.ofNat 32 (0 : Fin 8).val) 0#32) (IntOp.cmpi .eq (BitVec.ofNat 32 (0 : Fin 128).val) 2#32) = 0#1 := by decide
  rw [e0, e1, e2, select_one, select_zero, select_zero, zero_f32, add_zero, add_zero]

/-- Row 0, lane 1 holds the first denominator term's partial sum. -/
theorem stored_dena (u : Fin 1) :
    out0_1 x0 (ix3 u (0 : Fin 8) (1 : Fin 128)) = denaPart (n0 := 1) (n1 := 21) (n2 := 512) (n3 := 512) x0 0 := by
  rw [stored_eq]
  refine (tile_apply _ _ _ _ _ u 0 1).trans ?_
  rw [pay9_at, mask_at, mask_at, pay7_eq]
  have e0 : IntOp.andi (IntOp.cmpi .eq (BitVec.ofNat 32 (0 : Fin 8).val) 0#32) (IntOp.cmpi .eq (BitVec.ofNat 32 (1 : Fin 128).val) 0#32) = 0#1 := by decide
  have e1 : IntOp.andi (IntOp.cmpi .eq (BitVec.ofNat 32 (0 : Fin 8).val) 0#32) (IntOp.cmpi .eq (BitVec.ofNat 32 (1 : Fin 128).val) 1#32) = 1#1 := by decide
  have e2 : IntOp.andi (IntOp.cmpi .eq (BitVec.ofNat 32 (0 : Fin 8).val) 0#32) (IntOp.cmpi .eq (BitVec.ofNat 32 (1 : Fin 128).val) 2#32) = 0#1 := by decide
  rw [e0, e1, e2, select_zero, select_one, select_zero]
  show Ideal.ofBits .f32 0x00000000#32 + _ + Ideal.ofBits .f32 0x00000000#32 = _
  rw [zero_f32, zero_add, add_zero]

/-- Row 0, lane 2 holds the second denominator term's partial sum. -/
theorem stored_denb (u : Fin 1) :
    out0_1 x0 (ix3 u (0 : Fin 8) (2 : Fin 128)) = denbPart (n0 := 1) (n1 := 21) (n2 := 512) (n3 := 512) x0 0 := by
  rw [stored_eq]
  refine (tile_apply _ _ _ _ _ u 0 2).trans ?_
  rw [pay9_at, mask_at, mask_at, pay8_eq]
  have e0 : IntOp.andi (IntOp.cmpi .eq (BitVec.ofNat 32 (0 : Fin 8).val) 0#32) (IntOp.cmpi .eq (BitVec.ofNat 32 (2 : Fin 128).val) 0#32) = 0#1 := by decide
  have e1 : IntOp.andi (IntOp.cmpi .eq (BitVec.ofNat 32 (0 : Fin 8).val) 0#32) (IntOp.cmpi .eq (BitVec.ofNat 32 (2 : Fin 128).val) 1#32) = 0#1 := by decide
  have e2 : IntOp.andi (IntOp.cmpi .eq (BitVec.ofNat 32 (0 : Fin 8).val) 0#32) (IntOp.cmpi .eq (BitVec.ofNat 32 (2 : Fin 128).val) 2#32) = 1#1 := by decide
  rw [e0, e1, e2, select_zero, select_zero, select_one]
  show Ideal.ofBits .f32 0x00000000#32 + Ideal.ofBits .f32 0x00000000#32 + _ = _
  rw [zero_f32, zero_add, zero_add]

end Cert.KernelIdeal.StoredTile

end
-- ==== Proof.KernelResult.lean ====
/-
  The kernel program's result as the loss of its three totals.

  After the region the [8, 8, 128] array holds, at (b, 0, 0), (b, 0, 1), (b, 0, 2), batch element `b`'s partial sums of
  the per-pixel terms `S·O − Q`, `T·O − S`, `20·S`. The lines after the region sum the array over `b` from 0, read row 0,
  lanes 0, 1, 2 of the sum, and combine them as `num / ((den_a + den_b) − num)`.
-/
import proofs.«118659_j40312563040867_2_alg».proof.Proof.PartialsArray
import proofs.«118659_j40312563040867_2_alg».proof.Proof.StoredTile
import Idealize.ShloMosaic.PureOps.Ideal.Laws

noncomputable section

open scoped BigOperators

namespace Cert.KernelIdeal.Result

open Cert.KernelIdeal Cert.KernelIdeal.Gen Idealize.ShloMosaic Idealize.ShloMosaic.TcCoe Idealize.ShloMosaic.ValueIdx
open Cert.PairLoss Cert.LibIdxSums Cert.KernelIdeal.BlockPartials Cert.KernelIdeal.StoredTile Cert.KernelIdeal.PartialsArray

variable (X : (⟨S8x21x512x512, .f32⟩ : BufTy).Contents (Elt Ideal))

/-- A channel column of batch element `b` taken as a block is that column of the input. -/
theorem chan_batchBlock (b : Fin 8) (h w : Fin 512) :
    chan (n0 := 1) (n1 := 21) (n2 := 512) (n3 := 512) (batchBlock X b) 0 h w
      = chan (n0 := 8) (n1 := 21) (n2 := 512) (n3 := 512) X b h w := rfl

theorem numPart_batchBlock (b : Fin 8) :
    numPart (n0 := 1) (n1 := 21) (n2 := 512) (n3 := 512) (batchBlock X b) 0
      = numPart (n0 := 8) (n1 := 21) (n2 := 512) (n3 := 512) X b := by
  unfold numPart; simp only [chan_batchBlock]
theorem denaPart_batchBlock (b : Fin 8) :
    denaPart (n0 := 1) (n1 := 21) (n2 := 512) (n3 := 512) (batchBlock X b) 0
      = denaPart (n0 := 8) (n1 := 21) (n2 := 512) (n3 := 512) X b := by
  unfold denaPart; simp only [chan_batchBlock]
theorem denbPart_batchBlock (b : Fin 8) :
    denbPart (n0 := 1) (n1 := 21) (n2 := 512) (n3 := 512) (batchBlock X b) 0
      = denbPart (n0 := 8) (n1 := 21) (n2 := 512) (n3 := 512) X b := by
  unfold denbPart; simp only [chan_batchBlock]

/-- The array after the region at (b, 0, lane 0 / 1 / 2): batch element `b`'s three partial sums. -/
theorem partials_num (b : Fin 8) :
    partials X (ix3 b (0 : Fin 8) (0 : Fin 128)) = numPart (n0 := 8) (n1 := 21) (n2 := 512) (n3 := 512) X b :=
  (stored_num (batchBlock X b) 0).trans (numPart_batchBlock X b)
theorem partials_dena (b : Fin 8) :
    partials X (ix3 b (0 : Fin 8) (1 : Fin 128)) = denaPart (n0 := 8) (n1 := 21) (n2 := 512) (n3 := 512) X b :=
  (stored_dena (batchBlock X b) 0).trans (denaPart_batchBlock X b)
theorem partials_denb (b : Fin 8) :
    partials X (ix3 b (0 : Fin 8) (2 : Fin 128)) = denbPart (n0 := 8) (n1 := 21) (n2 := 512) (n3 := 512) X b :=
  (stored_denb (batchBlock X b) 0).trans (denbPart_batchBlock X b)

/-- A [1, 1] slice of an [8, 128] value at offsets (0, q), read at its one index, is the value at (0, q). -/
theorem slice_apply (T : (⟨S8x128, .f32⟩ : BufTy).Contents (Elt Ideal)) (off : Fin 2 → Nat) (hs : S8x128.Slices off S1x1)
    (q : Fin 128) (h0 : off 0 = 0) (h1 : off 1 = q.val) (j' : S1x1.Idx) :
    extractStridedSlice S1x1 off T hs j' = T (ix2 (0 : Fin 8) q) :=
  extractStridedSlice_apply off T hs j' _ fun a => by
    have a0 : (j' 0).val < 1 := (j' 0).isLt
    have a1 : (j' 1).val < 1 := (j' 1).isLt
    match a with
    | ⟨0, _⟩ => show (0 : Nat) = off 0 + (j' 0).val; omega
    | ⟨1, _⟩ => show q.val = off 1 + (j' 1).val; omega

/-- The sum over the batch axis, from 0, read at row 0. -/
theorem batchTotal_apply (P : (⟨S8x8x128, .f32⟩ : BufTy).Contents (Elt Ideal)) (q : Fin 128) :
    Host.reduceAdd (F := Ideal) P (constant (F := Ideal) S_ .f32 0x00000000#32) reducesTo_S8x8x128_S8x128_d0 h_S_ (ix2 (0 : Fin 8) q)
      = ∑ b : Fin 8, P (ix3 b (0 : Fin 8) q) := by
  simp only [Host.reduceAdd, Ideal.hostReduceAdd_def]
  rw [Ideal.hostReduceAdd_single reducesTo_S8x8x128_S8x128_d0 (by decide)]
  refine (congrArg₂ (· + ·) Ideal.ofBits_zero_f32 (Finset.sum_congr rfl fun b _ => ?_)).trans (zero_add _)
  exact congrArg P (funext fun a => Fin.ext (by match a with | ⟨0, _⟩ => rfl | ⟨1, _⟩ => rfl | ⟨2, _⟩ => rfl))

/-- One of the three scalars the lines after the region read. -/
theorem lane_total (P : (⟨S8x8x128, .f32⟩ : BufTy).Contents (Elt Ideal)) (off : Fin 2 → Nat) (hs : S8x128.Slices off S1x1)
    (q : Fin 128) (h0 : off 0 = 0) (h1 : off 1 = q.val) (j : S_.Idx) :
    shapeCast S_ (extractStridedSlice S1x1 off
        (Host.reduceAdd (F := Ideal) P (constant (F := Ideal) S_ .f32 0x00000000#32) reducesTo_S8x8x128_S8x128_d0 h_S_) hs) shapeCasts_S1x1_S_ j
      = ∑ b : Fin 8, P (ix3 b (0 : Fin 8) q) := by
  unfold shapeCast
  exact (slice_apply _ off hs q h0 h1 _).trans (batchTotal_apply P q)

theorem ratio_congr {n n' a a' b b' : EReal} (h1 : n = n') (h2 : a = a') (h3 : b = b') : ratio n a b = ratio n' a' b' := by
  subst h1 h2 h3; rfl

/-- The quotient's entrywise form over variables. -/
theorem tail_form (N A B : FVec Ideal S_ .f32) (j : S_.Idx) :
    Host.divf (F := Ideal) N (subf (addf A B) N) j = ratio (N j) (A j) (B j) := rfl

/-- The kernel program's result. -/
theorem result_eq (j : S_.Idx) :
    tail (partials X) j
      = ratio (numK (n0 := 8) (n1 := 21) (n2 := 512) (n3 := 512) X) (denaK (n0 := 8) (n1 := 21) (n2 := 512) (n3 := 512) X)
          (denbK (n0 := 8) (n1 := 21) (n2 := 512) (n3 := 512) X) := by
  unfold tail
  refine (tail_form _ _ _ j).trans (ratio_congr ?_ ?_ ?_)
  · refine (lane_total _ _ _ (0 : Fin 128) rfl rfl j).trans ?_
    unfold numK
    exact Finset.sum_congr rfl fun b _ => partials_num X b
  · refine (lane_total _ _ _ (1 : Fin 128) rfl rfl j).trans ?_
    unfold denaK
    exact Finset.sum_congr rfl fun b _ => partials_dena X b
  · refine (lane_total _ _ _ (2 : Fin 128) rfl rfl j).trans ?_
    unfold denbK
    exact Finset.sum_congr rfl fun b _ => partials_denb X b

end Cert.KernelIdeal.Result

end
-- ==== Proof.lean ====
/-
  The certificate of the pairwise channel loss: a kernel that streams the [8, 21, 512, 512] input one batch element per
  grid point, emitting per batch element three partial sums, against a reference that takes three sums over every
  entry at once.

  With `keep x` the weight 0 on the ignored value 255 and 1 elsewhere, and per pixel `O = Σ_c x`, `S = Σ_c x·keep x`,
  `T = Σ_c keep x`, `Q = Σ_c x·(x·keep x)`: the kernel accumulates `Σ_pixels (S·O − Q)`, `Σ_pixels (T·O − S)` and
  `Σ_pixels 20·S` per batch element and the lines after it add the eight triples; the reference sums `x·(S − x·keep x)`,
  `x·(T − keep x)` and `x·keep x` over every entry and multiplies the last by 20. Under the precondition every entry
  is a real number, where the product distributes over the channel sums, so the three totals agree; both programs end
  in `num / ((den_a + den_b) − num)` of them.

  The three frames are the generated ones (the reference's from its generated run); the idealization rewrote nothing,
  so its preservation claim is trivial; the kernel's result is read off its generated frame run, the reference's off
  its generated run and stage lemmas.
-/
import proofs.«118659_j40312563040867_2_alg».proof.Defs
import proofs.«118659_j40312563040867_2_alg».proof.Proof.Gen.Kernel
import proofs.«118659_j40312563040867_2_alg».proof.Proof.Gen.Kernel.Skeleton
import proofs.«118659_j40312563040867_2_alg».proof.Proof.Gen.Kernel.Launch
import proofs.«118659_j40312563040867_2_alg».proof.Proof.Gen.Kernel.Points
import proofs.«118659_j40312563040867_2_alg».proof.Proof.Gen.Kernel.Frame
import proofs.«118659_j40312563040867_2_alg».proof.Proof.Gen.KernelIdeal
import proofs.«118659_j40312563040867_2_alg».proof.Proof.Gen.KernelIdeal.Skeleton
import proofs.«118659_j40312563040867_2_alg».proof.Proof.Gen.KernelIdeal.Launch
import proofs.«118659_j40312563040867_2_alg».proof.Proof.Gen.KernelIdeal.Points
import proofs.«118659_j40312563040867_2_alg».proof.Proof.Gen.KernelIdeal.Frame
import proofs.«118659_j40312563040867_2_alg».proof.Proof.Gen.ReferenceIdeal
import proofs.«118659_j40312563040867_2_alg».proof.Proof.Gen.ReferenceIdeal.Run
import proofs.«118659_j40312563040867_2_alg».proof.Proof.Gen.ReferenceIdeal.Read
import proofs.«118659_j40312563040867_2_alg».proof.Proof.Gen.Pre_finite_inputs
import proofs.«118659_j40312563040867_2_alg».proof.Proof.PairLossTerms
import proofs.«118659_j40312563040867_2_alg».proof.Proof.FiniteEntries
import proofs.«118659_j40312563040867_2_alg».proof.Proof.ReferenceTotals
import proofs.«118659_j40312563040867_2_alg».proof.Proof.PartialsArray
import proofs.«118659_j40312563040867_2_alg».proof.Proof.KernelResult
import Idealize.ShloMosaic.Adequacy
import Idealize.ShloMosaic.Init

noncomputable section

namespace Cert.Proof

open Idealize.ShloMosaic Idealize.SL.Sem

/-- The kernel as printed runs, and its arguments end unchanged. -/
theorem frame_kernel : Cert.frame_Kernel := fun m ρ _ => Cert.Kernel.Gen.frame m ρ

/-- The idealized kernel runs, and its arguments end unchanged. -/
theorem frame_kernelIdeal : Cert.frame_KernelIdeal := fun m ρ _ => Cert.KernelIdeal.Gen.frame m ρ

/-- The idealized reference runs, and its arguments end unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the loss of the same three totals:
    the kernel's per-pixel arrangement and the reference's per-entry arrangement agree because the precondition makes
    every entry a real number. -/
theorem algebraic : Cert.algebraic_KernelIdeal_ReferenceIdeal := by
  intro m ρ m' ρ' hpre hagree
  refine ⟨fun c => Cert.KernelIdeal.PartialsArray.tail (Cert.KernelIdeal.PartialsArray.partials
      (m ((c.tc : Thread Cert.KernelIdeal.nD Cert.KernelIdeal.τ).loc Cert.KernelIdeal.main_arg0))),
    Cert.KernelIdeal.PartialsArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1]
  refine (Cert.ReferenceIdeal.Read.val_main_v20_eq _).trans ?_
  funext j
  have hX : ∀ i, ∃ r : ℝ, (m ((c.tc : Thread Cert.KernelIdeal.nD Cert.KernelIdeal.τ).loc Cert.KernelIdeal.main_arg0)
      : Cert.KernelIdeal.S8x21x512x512.Idx → EReal) i = (r : EReal) :=
    fun i => Cert.Pre_finite_inputs.Finite.real_entries _ _ (hpre c) i
  refine (Cert.ReferenceIdeal.Totals.result_eq _ j).trans (Eq.trans ?_ (Cert.KernelIdeal.Result.result_eq _ j).symm)
  rw [Cert.PairLoss.numK_eq_numR _ hX, Cert.PairLoss.denaK_eq_denaR _ hX, Cert.PairLoss.denbK_eq _ hX]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
